-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x819200 : Shape := ⟨2, ![2, 819200]⟩
abbrev S819200 : Shape := ⟨1, ![819200]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16384x16384 : Shape := ⟨2, ![16384, 16384]⟩
abbrev S_ : Shape := ⟨0, ![]⟩

class Facts : Prop where
  bcast_S_S819200 : S_.BroadcastsInDim S819200 (![] : Fin 0 → Fin S819200.rank)
  reducesTo_S819200_S_d0 : S819200.ReducesTo [0] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16384x16384 : S_.BroadcastsInDim S16384x16384 (![] : Fin 0 → Fin S16384x16384.rank)
  reducesTo_S16384x16384_S_d0_1 : S16384x16384.ReducesTo [0, 1] S_

variable [Facts]

def fn_part1 {F : FTy → Type} [FloatOps F] (main_arg5 : FVec F S16 .f32) (main_arg6 : FVec F S16384x16384 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16384x16384 .f32 := Host.absf main_arg6
  let main_cst_8 : FVec F S_ .f32 := constant S_ .f32 0x7F800000#32
  let main_v25 : FVec F S16384x16384 .f32 := broadcastInDim S16384x16384 ![] bcast_S_S16384x16384 main_cst_8
  let main_v26 : IVec S16384x16384 1 := cmpf .olt main_v24 main_v25
  let main_c_9 : IVec S_ 1 := constantI S_ 1 1#1
  let main_v27 : IVec S_ 1 := (fun x v => Host.reduce IntOp.andi x v reducesTo_S16384x16384_S_d0_1 h_S_) main_v26 main_c_9
  let main_v28 : IVec S_ 1 := andi main_v23 main_v27
  main_v28

def fn {F : FTy → Type} [FloatOps F] (main_arg0 : IVec S2x819200 32) (main_arg1 : FVec F S819200 .f32) (main_arg2 : FVec F S1024x64 .f32) (main_arg3 : FVec F S64 .f32) (main_arg4 : FVec F S64x16 .f32) (main_arg5 : FVec F S16 .f32) (main_arg6 : FVec F S16384x16384 .f32) : IVec S_ 1 :=
  let main_v0 : FVec F S819200 .f32 := Host.absf main_arg1
  let main_cst : FVec F S_ .f32 := constant S_ .f32 0x7F800000#32
  let main_v1 : FVec F S819200 .f32 := broadcastInDim S819200 ![] bcast_S_S819200 main_cst
  let main_v2 : IVec S819200 1 := cmpf .olt main_v0 main_v1
  let main_c : IVec S_ 1 := constantI S_ 1 1#1
  let main_v3 : IVec S_ 1 := (fun x v => Host.reduce IntOp.andi x v reducesTo_S819200_S_d0 h_S_) main_v2 main_c
  let main_v4 : FVec F S1024x64 .f32 := Host.absf main_arg2
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_arg6 main_v13 main_v16
-- ==== Kernel.lean ====
abbrev S2x819200 : Shape := ⟨2, ![2, 819200]⟩
abbrev S819200 : Shape := ⟨1, ![819200]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16384x16384 : Shape := ⟨2, ![16384, 16384]⟩
abbrev S1x819200 : Shape := ⟨2, ![1, 819200]⟩
abbrev S819200x1 : Shape := ⟨2, ![819200, 1]⟩
abbrev S_ : Shape := ⟨0, ![]⟩
abbrev S819200x64 : Shape := ⟨2, ![819200, 64]⟩
abbrev S16384x64 : Shape := ⟨2, ![16384, 64]⟩
abbrev S1x64 : Shape := ⟨2, ![1, 64]⟩
abbrev S16384x16 : Shape := ⟨2, ![16384, 16]⟩
abbrev S1x16 : Shape := ⟨2, ![1, 16]⟩
abbrev S1024x2048 : Shape := ⟨2, ![1024, 2048]⟩
abbrev S2048x16 : Shape := ⟨2, ![2048, 16]⟩
abbrev S1024x16 : Shape := ⟨2, ![1024, 16]⟩
abbrev S1024 : Shape := ⟨1, ![1024]⟩
abbrev S1024x1 : Shape := ⟨2, ![1024, 1]⟩

abbrev nBuf : Space → Nat
  | .hbm => 38
  | .vmem => 7
  | .smem => 0
  | _ => 0

abbrev bufTy : (tb : Table) → Fin (tcTables nBuf tb) → BufTy
  | .hbm, ⟨0, _⟩ => ⟨S2x819200, .i32⟩
  | .hbm, ⟨1, _⟩ => ⟨S819200, .f32⟩
  | .hbm, ⟨2, _⟩ => ⟨S1024x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S16384x16384, .f32⟩
  | .hbm, ⟨7, _⟩ => ⟨S1x819200, .i32⟩
  | .hbm, ⟨8, _⟩ => ⟨S819200, .i32⟩
  | .hbm, ⟨9, _⟩ => ⟨S1x819200, .i32⟩
  | .hbm, ⟨10, _⟩ => ⟨S819200, .i32⟩
  | .hbm, ⟨11, _⟩ => ⟨S819200x1, .f32⟩
  | .hbm, ⟨12, _⟩ => ⟨S_, .i32⟩
  | .hbm, ⟨13, _⟩ => ⟨S819200, .i32⟩
  | .hbm, ⟨14, _⟩ => ⟨S819200, .i1⟩
  | .hbm, ⟨15, _⟩ => ⟨S_, .i32⟩
  | .hbm, ⟨16, _⟩ => ⟨S819200, .i32⟩
  | .hbm, ⟨17, _⟩ => ⟨S819200, .i32⟩
  | .hbm, ⟨18, _⟩ => ⟨S819200, .i32⟩
  | .hbm, ⟨19, _⟩ => ⟨S819200x1, .i32⟩
  | .hbm, ⟨20, _⟩ => ⟨S819200x64, .f32⟩
  | .hbm, ⟨21, _⟩ => ⟨S819200x64, .f32⟩
  | .hbm, ⟨22, _⟩ => ⟨S819200x64, .f32⟩
  | .hbm, ⟨23, _⟩ => ⟨S_, .f32⟩
  | .hbm, ⟨24, _⟩ => ⟨S16384x64, .f32⟩
  | .hbm, ⟨25, _⟩ => ⟨S819200x1, .i32⟩
  | .hbm, ⟨26, _⟩ => ⟨S16384x64, .f32⟩
  | .hbm, ⟨27, _⟩ => ⟨S1x64, .f32⟩
  | .hbm, ⟨28, _⟩ => ⟨S16384x64, .f32⟩
  | .hbm, ⟨29, _⟩ => ⟨S16384x64, .f32⟩
  | .hbm, ⟨30, _⟩ => ⟨S_, .f32⟩
  | .hbm, ⟨31, _⟩ => ⟨S16384x64, .f32⟩
  | .hbm, ⟨32, _⟩ => ⟨S16384x64, .f32⟩
  | .hbm, ⟨33, _⟩ => ⟨S16384x16, .f32⟩
  | .hbm, ⟨34, _⟩ => ⟨S1x16, .f32⟩
  | .hbm, ⟨35, _⟩ => ⟨S16384x16, .f32⟩
  | .hbm, ⟨36, _⟩ => ⟨S16384x16, .f32⟩
  | .hbm, ⟨37, _⟩ => ⟨S16384x16, .f32⟩
  | .local _ .vmem, ⟨0, _⟩ => ⟨S1024x2048, .f32⟩
  | .local _ .vmem, ⟨1, _⟩ => ⟨S1024x2048, .f32⟩
  | .local _ .vmem, ⟨2, _⟩ => ⟨S2048x16, .f32⟩
  | .local _ .vmem, ⟨3, _⟩ => ⟨S2048x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | _, _ => ⟨S2x819200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  bcast_S819200_S819200x1_0 : S819200.BroadcastsInDim S819200x1 (![0] : Fin 1 → Fin S819200x1.rank)
  bcast_S_S819200 : S_.BroadcastsInDim S819200 (![] : Fin 0 → Fin S819200.rank)
  bcast_S819200x1_S819200x64_0_1 : S819200x1.BroadcastsInDim S819200x64 (![0, 1] : Fin 2 → Fin S819200x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  reduces_S1024x16_S1024 : S1024x16.Reduces [1] S1024
  shapeCasts_S1024_S1024x1 : S1024.ShapeCasts S1024x1
  broadcasts_S1024x1_S1024x16 : S1024x1.Broadcasts S1024x16
  gather_S1024x64_S819200x1_S819200x64_1_0_n_n_0_1_164_wf : GatherDims.WF S1024x64 S819200x1 S819200x64 [1] [0] [] [0] [] 1 ![1, 64]
  scatter_S16384x64_S819200x1_S819200x64_1_0_0_1_wf : ScatterDims.WF S16384x64 S819200x1 S819200x64 [1] [0] [0] 1
  dot_S16384x64_S64x16_S16384x16_1_0_0_1_n_n_wf : DotDims.WF S16384x64 S64x16 S16384x16 [1] [0] [0] [1] [] []
  dot_S1024x2048_S2048x16_S1024x16_1_0_0_1_n_n_wf : DotDims.WF S1024x2048 S2048x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .f32 = 32 ∨ (Rect.block (s := S16384x16) S1024x16.size (cc0_transform_2 i) (hinb0_2 i)).WholeWords (EltTy.packing .f32)

variable [Facts₀]

def gather_S1024x64_S819200x1_S819200x64_1_0_n_n_0_1_164 : GatherDims S1024x64 S819200x1 S819200x64 where
  offsetDims := [1]
  collapsedSliceDims := [0]
  operandBatchingDims := []
  startIndicesBatchingDims := []
  startIndexMap := [0]
  indexVectorDim := 1
  sliceSizes := ![1, 64]
  wf := gather_S1024x64_S819200x1_S819200x64_1_0_n_n_0_1_164_wf
def scatter_S16384x64_S819200x1_S819200x64_1_0_0_1 : ScatterDims S16384x64 S819200x1 S819200x64 where
  updateWindowDims := [1]
  insertedWindowDims := [0]
  scatterDimsToOperandDims := [0]
  indexVectorDim := 1
  wf := scatter_S16384x64_S819200x1_S819200x64_1_0_0_1_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf

abbrev win0_0 : Pipeline.Window sig grid0 :=
  Pipeline.Window.ofSpec (Memref.whole main_arg6) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x819200 : Shape := ⟨2, ![2, 819200]⟩
abbrev S819200 : Shape := ⟨1, ![819200]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16384x16384 : Shape := ⟨2, ![16384, 16384]⟩
abbrev S1x819200 : Shape := ⟨2, ![1, 819200]⟩
abbrev S819200x1 : Shape := ⟨2, ![819200, 1]⟩
abbrev S_ : Shape := ⟨0, ![]⟩
abbrev S819200x64 : Shape := ⟨2, ![819200, 64]⟩
abbrev S16384x64 : Shape := ⟨2, ![16384, 64]⟩
abbrev S1x64 : Shape := ⟨2, ![1, 64]⟩
abbrev S16384x16 : Shape := ⟨2, ![16384, 16]⟩
abbrev S1x16 : Shape := ⟨2, ![1, 16]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x819200, .i32⟩
  | .hbm, ⟨1, _⟩ => ⟨S819200, .f32⟩
  | .hbm, ⟨2, _⟩ => ⟨S1024x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S16384x16384, .f32⟩
  | .hbm, ⟨7, _⟩ => ⟨S1x819200, .i32⟩
  | .hbm, ⟨8, _⟩ => ⟨S819200, .i32⟩
  | .hbm, ⟨9, _⟩ => ⟨S1x819200, .i32⟩
  | .hbm, ⟨10, _⟩ => ⟨S819200, .i32⟩
  | .hbm, ⟨11, _⟩ => ⟨S819200x1, .f32⟩
  | .hbm, ⟨12, _⟩ => ⟨S_, .i32⟩
  | .hbm, ⟨13, _⟩ => ⟨S819200, .i32⟩
  | .hbm, ⟨14, _⟩ => ⟨S819200, .i1⟩
  | .hbm, ⟨15, _⟩ => ⟨S_, .i32⟩
  | .hbm, ⟨16, _⟩ => ⟨S819200, .i32⟩
  | .hbm, ⟨17, _⟩ => ⟨S819200, .i32⟩
  | .hbm, ⟨18, _⟩ => ⟨S819200, .i32⟩
  | .hbm, ⟨19, _⟩ => ⟨S819200x1, .i32⟩
  | .hbm, ⟨20, _⟩ => ⟨S819200x64, .f32⟩
  | .hbm, ⟨21, _⟩ => ⟨S819200x64, .f32⟩
  | .hbm, ⟨22, _⟩ => ⟨S819200x64, .f32⟩
  | .hbm, ⟨23, _⟩ => ⟨S_, .f32⟩
  | .hbm, ⟨24, _⟩ => ⟨S16384x64, .f32⟩
  | .hbm, ⟨25, _⟩ => ⟨S819200x1, .i32⟩
  | .hbm, ⟨26, _⟩ => ⟨S16384x64, .f32⟩
  | .hbm, ⟨27, _⟩ => ⟨S1x64, .f32⟩
  | .hbm, ⟨28, _⟩ => ⟨S16384x64, .f32⟩
  | .hbm, ⟨29, _⟩ => ⟨S16384x64, .f32⟩
  | .hbm, ⟨30, _⟩ => ⟨S_, .f32⟩
  | .hbm, ⟨31, _⟩ => ⟨S16384x64, .f32⟩
  | .hbm, ⟨32, _⟩ => ⟨S16384x64, .f32⟩
  | .hbm, ⟨33, _⟩ => ⟨S16384x16, .f32⟩
  | .hbm, ⟨34, _⟩ => ⟨S1x16, .f32⟩
  | .hbm, ⟨35, _⟩ => ⟨S16384x16, .f32⟩
  | .hbm, ⟨36, _⟩ => ⟨S16384x16, .f32⟩
  | .hbm, ⟨37, _⟩ => ⟨S16384x16, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x1, .f32⟩
  | .hbm, ⟨51, _⟩ => ⟨S16384x16, .f32⟩
  | .hbm, ⟨52, _⟩ => ⟨S16384x16, .f32⟩
  | _, _ => ⟨S2x819200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_cst : Ref sig .tc := ⟨.hbm, 38, rfl⟩
abbrev main_call1_v0 : Ref sig .tc := ⟨.hbm, 39, rfl⟩
abbrev main_call1_cst_0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_cst_1 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_v26 : Ref sig .tc := ⟨.hbm, 52, rfl⟩

abbrev nD : Nat := 1
abbrev τ : Topo := Topo.v7x

variable {F : FTy → Type} [FloatOps F]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  bcast_S819200_S819200x1_0 : S819200.BroadcastsInDim S819200x1 (![0] : Fin 1 → Fin S819200x1.rank)
  bcast_S_S819200 : S_.BroadcastsInDim S819200 (![] : Fin 0 → Fin S819200.rank)
  bcast_S819200x1_S819200x64_0_1 : S819200x1.BroadcastsInDim S819200x64 (![0, 1] : Fin 2 → Fin S819200x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  gather_S1024x64_S819200x1_S819200x64_1_0_n_n_0_1_164_wf : GatherDims.WF S1024x64 S819200x1 S819200x64 [1] [0] [] [0] [] 1 ![1, 64]
  scatter_S16384x64_S819200x1_S819200x64_1_0_0_1_wf : ScatterDims.WF S16384x64 S819200x1 S819200x64 [1] [0] [0] 1
  dot_S16384x64_S64x16_S16384x16_1_0_0_1_n_n_wf : DotDims.WF S16384x64 S64x16 S16384x16 [1] [0] [0] [1] [] []
  dot_S16384x16384_S16384x16_S16384x16_1_0_0_1_n_n_wf : DotDims.WF S16384x16384 S16384x16 S16384x16 [1] [0] [0] [1] [] []

variable [Facts₀]

def gather_S1024x64_S819200x1_S819200x64_1_0_n_n_0_1_164 : GatherDims S1024x64 S819200x1 S819200x64 where
  offsetDims := [1]
  collapsedSliceDims := [0]
  operandBatchingDims := []
  startIndicesBatchingDims := []
  startIndexMap := [0]
  indexVectorDim := 1
  sliceSizes := ![1, 64]
  wf := gather_S1024x64_S819200x1_S819200x64_1_0_n_n_0_1_164_wf
def scatter_S16384x64_S819200x1_S819200x64_1_0_0_1 : ScatterDims S16384x64 S819200x1 S819200x64 where
  updateWindowDims := [1]
  insertedWindowDims := [0]
  scatterDimsToOperandDims := [0]
  indexVectorDim := 1
  wf := scatter_S16384x64_S819200x1_S819200x64_1_0_0_1_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«136042_j28587302322286_1_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibRowLsm.lean ====
/-
  Row-wise log-softmax in the form shifted by the row maximum, on the extended reals:
  entry (p, q) of an [a, b] array Y goes to  (Y p q - M p) - log (∑ k, exp (Y p k - M p)),  M p the largest entry of row p
  (the fold of max from ⊥ over the row). The vector unit's spelling of it (two lane reductions, their results cast to a
  column and broadcast along the rows) and the host's spelling (two reductions over axis 1, a further max against a
  splat of -∞, two broadcasts each) both read, at an entry, as that expression.
-/
import Idealize.ShloMosaic.Lib.ValueIdx
import Idealize.ShloMosaic.Lib.ValueLayout
import Idealize.ShloMosaic.Lib.Pipeline.Value
import Idealize.ShloMosaic.PureOps.Ideal.Laws
import proofs.«136042_j28587302322286_1_alg».proof.Proof.LibLayout
import proofs.«136042_j28587302322286_1_alg».proof.Proof.LibLay3

noncomputable section

namespace Cert.RowLsm

open Idealize.ShloMosaic Idealize.ShloMosaic.ValueIdx

/-- The largest entry of row `p`, taken from `⊥`. -/
def rowMax {a b : ℕ} (Y : (⟨2, ![a, b]⟩ : Shape).Idx → EReal) (p : Fin a) : EReal :=
  (Finset.univ : Finset (Fin b)).fold max ⊥ (fun k => Y (ix2 p k))

/-- Log-softmax of row `p` at column `q`, shifted by the row's largest entry. -/
def lsm {a b : ℕ} (Y : (⟨2, ![a, b]⟩ : Shape).Idx → EReal) (p : Fin a) (q : Fin b) : EReal :=
  (Y (ix2 p q) - rowMax Y p) - Ideal.log (∑ k : Fin b, Ideal.exp (Y (ix2 p k) - rowMax Y p))

/-- The float pattern of -∞ is `⊥`. -/
theorem ofBits_neg_inf : Ideal.ofBits .f32 0xFF800000#32 = ⊥ := by simp [Ideal.ofBits, Ideal.ieee]

/-- The vector unit's row maximum, cast to a column and broadcast along the rows, is `rowMax` at every entry of the row. -/
theorem vec_rowMax {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (multiReduction .maximumf [1] (⟨1, ![a]⟩ : Shape) v 0xFF800000#32 hred hφ hmax) hcast) hbc (ix2 p c) = rowMax v p := by
  rw [Cert.Attn.Layout.broadcastTo_a1_ab_apply, Cert.Attn.Layout.shapeCast_a_a1_apply, Cert.GQA.Lay.rowMax_apply,
    ofBits_neg_inf]
  rfl

/-- THE VECTOR UNIT'S SPELLING at an entry. -/
theorem vec_lsm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast)) hbc) (ix2 p q)
      = lsm v p q := by
  rw [subf_apply, subf_apply, vec_rowMax, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold lsm
  refine congrArg (fun s => (v (ix2 p q) - rowMax v p) - Ideal.log s) (Finset.sum_congr rfl fun k _ => ?_)
  show Ideal.exp (v (ix2 p k) - _) = _
  rw [vec_rowMax]

end Cert.RowLsm

end
-- ==== Proof.LibHostLsm.lean ====
/-
  The host's spelling of the row-wise log-softmax shifted by the row maximum, read at an entry: a reduction by maximum
  over axis 1 from -∞, a further maximum against a splat of -∞ (which changes nothing), the result broadcast back to the
  rows; the shifted entries exponentiated and summed over axis 1 from 0, the logarithm of the sums broadcast back and
  subtracted.
-/
import proofs.«136042_j28587302322286_1_alg».proof.Proof.LibRowLsm
import Idealize.ShloMosaic.PureOps.Reduce

noncomputable section

namespace Cert.RowLsm

open Idealize.ShloMosaic Idealize.ShloMosaic.ValueIdx

variable {α : Type}

/-- A vector of `a` entries broadcast to the column `[a, 1]`: entry `(p, u)` is entry `p`. -/
theorem bcast_col {a : ℕ} (x : (⟨1, ![a]⟩ : Shape).Idx → α)
    (h : (⟨1, ![a]⟩ : Shape).BroadcastsInDim (⟨2, ![a, 1]⟩ : Shape) ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` broadcast along the rows to `[a, b]`: entry `(p, c)` is the column's entry of row `p`. -/
theorem bcast_rows {a b : ℕ} (x : (⟨2, ![a, 1]⟩ : Shape).Idx → α)
    (h : (⟨2, ![a, 1]⟩ : Shape).BroadcastsInDim (⟨2, ![a, b]⟩ : Shape) ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A number splat over a vector: every entry is the number. -/
theorem bcast_scalar {a : ℕ} (x : (⟨0, ![]⟩ : Shape).Idx → α)
    (h : (⟨0, ![]⟩ : Shape).BroadcastsInDim (⟨1, ![a]⟩ : Shape) ![]) (p : Fin a) :
    broadcastInDim ⟨1, ![a]⟩ ![] h x (ix1 p) = x ix0 :=
  broadcastInDim_apply _ h x (ix1 p) ix0 fun ax => ax.elim0

/-- The host's logarithm and exponential of an array, at an entry. -/
theorem hostLog_apply {s : Shape} (w : FVec Ideal s .f32) (i : s.Idx) : Host.log w i = Ideal.log (w i) := rfl
theorem hostExp_apply {s : Shape} (w : FVec Ideal s .f32) (i : s.Idx) : Host.exp w i = Ideal.exp (w i) := rfl

/-- The host's sum over an axis, at a kept index: the ideal sum from the initial number. -/
theorem hostReduceAdd_apply {s t u : Shape} {axes : List (Fin s.rank)} (x : FVec Ideal s .f32) (init : u.Idx → Ideal .f32)
    (h' : s.ReducesTo axes t) (hu : 0 < u.numel) (j : t.Idx) :
    Host.reduceAdd x init h' hu j = Ideal.hostReduceAdd h' x (init (Shape.Idx.first hu)) j := rfl

/-- The host's row maximum broadcast back to the rows is `rowMax` at every entry of the row. -/
theorem host_rowMax {a b : ℕ} (Y : FVec Ideal ⟨2, ![a, b]⟩ .f32)
    (hr' : (⟨2, ![a, b]⟩ : Shape).ReducesTo [1] (⟨1, ![a]⟩ : Shape))
    (hr : (⟨2, ![a, b]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (hb1 : (⟨1, ![a]⟩ : Shape).BroadcastsInDim (⟨2, ![a, 1]⟩ : Shape) ![0])
    (hb2 : (⟨2, ![a, 1]⟩ : Shape).BroadcastsInDim (⟨2, ![a, b]⟩ : Shape) ![0, 1])
    (p : Fin a) (c : Fin b) :
    broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf Y (constant (F := Ideal) ⟨0, ![]⟩ .f32 0xFF800000#32) hr' hu))) (ix2 p c)
      = rowMax Y p := by
  rw [bcast_rows, bcast_col, maximumf_apply, bcast_scalar, constant_apply, ofBits_neg_inf,
    Host.reduce_eq_fold_single FloatOps.maximumf Y _ hr' hr hu (ix1 p), constant_apply, ofBits_neg_inf,
    max_eq_right bot_le]
  exact congrArg (Finset.fold max ⊥ · (Finset.univ : Finset (Fin b)))
    (funext fun k => congrArg Y (Cert.Attn.Layout.lift_row hr p k))

/-- THE HOST'S SPELLING at an entry. -/
theorem host_lsm {a b : ℕ} (Y : FVec Ideal ⟨2, ![a, b]⟩ .f32)
    (hr' : (⟨2, ![a, b]⟩ : Shape).ReducesTo [1] (⟨1, ![a]⟩ : Shape))
    (hr : (⟨2, ![a, b]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (hb1 : (⟨1, ![a]⟩ : Shape).BroadcastsInDim (⟨2, ![a, 1]⟩ : Shape) ![0])
    (hb2 : (⟨2, ![a, 1]⟩ : Shape).BroadcastsInDim (⟨2, ![a, b]⟩ : Shape) ![0, 1])
    (p : Fin a) (q : Fin b) :
    subf (subf Y (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf Y (constant (F := Ideal) ⟨0, ![]⟩ .f32 0xFF800000#32) hr' hu)))))
      (broadcastInDim ⟨2, ![a, b]⟩ ![0, 1] hb2 (Host.log (broadcastInDim ⟨2, ![a, 1]⟩ ![0] hb1
        (Host.reduceAdd (Host.exp (subf Y (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf Y (constant (F := Ideal) ⟨0, ![]⟩ .f32 0xFF800000#32) hr' hu))))))
          (constant (F := Ideal) ⟨0, ![]⟩ .f32 0x00000000#32) hr' hu)))) (ix2 p q)
      = lsm Y p q := by
  rw [subf_apply, subf_apply, host_rowMax Y hr' hr, bcast_rows, hostLog_apply, bcast_col, hostReduceAdd_apply,
    Ideal.hostReduceAdd_single hr' hr, constant_apply, Ideal.ofBits_zero_f32, zero_add]
  unfold lsm
  refine congrArg (fun s => (Y (ix2 p q) - rowMax Y p) - Ideal.log s) (Finset.sum_congr rfl fun k _ => ?_)
  rw [hostExp_apply, subf_apply, Cert.Attn.Layout.lift_row hr p k, host_rowMax Y hr' hr]
  rfl

end Cert.RowLsm

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.Spec.lean ====
/-
  The result both programs compute, as one function of the dense propagation matrix P [16384, 16384] and the logits
  Z [16384, 16]: entry (r, j) is the row-wise log-softmax, shifted by the row's maximum, of the product P·Z —
      (P·Z)(r, j) = ∑ k, P(r, k) · Z(k, j).
  A row's log-softmax depends on that row only.
-/
import proofs.«136042_j28587302322286_1_alg».proof.Proof.LibRowLsm

noncomputable section

namespace Cert.PropSpec

open Idealize.ShloMosaic Idealize.ShloMosaic.ValueIdx Cert.RowLsm

/-- The product P·Z, entry by entry. -/
def prod (P : (⟨2, ![16384, 16384]⟩ : Shape).Idx → EReal) (Z : (⟨2, ![16384, 16]⟩ : Shape).Idx → EReal) :
    (⟨2, ![16384, 16]⟩ : Shape).Idx → EReal :=
  fun j => ∑ k : Fin 16384, P (ix2 (j 0) k) * Z (ix2 k (j 1))

/-- The result: the shifted row-wise log-softmax of the product. -/
def G (P : (⟨2, ![16384, 16384]⟩ : Shape).Idx → EReal) (Z : (⟨2, ![16384, 16]⟩ : Shape).Idx → EReal) :
    (⟨2, ![16384, 16]⟩ : Shape).Idx → EReal :=
  fun i => lsm (prod P Z) (i 0) (i 1)

/-- Two arrays that agree along a row of each have the same log-softmax along those rows. -/
theorem lsm_congr_row {a a' b : ℕ} (Y : (⟨2, ![a, b]⟩ : Shape).Idx → EReal) (Y' : (⟨2, ![a', b]⟩ : Shape).Idx → EReal)
    (p : Fin a) (p' : Fin a') (h : ∀ k : Fin b, Y (ix2 p k) = Y' (ix2 p' k)) (q : Fin b) :
    lsm Y p q = lsm Y' p' q := by
  have e : (fun k : Fin b => Y (ix2 p k)) = fun k => Y' (ix2 p' k) := funext h
  have em : rowMax Y p = rowMax Y' p' := congrArg (Finset.fold max ⊥ · (Finset.univ : Finset (Fin b))) e
  unfold lsm
  rw [em, h q]
  exact congrArg (fun s => (Y' (ix2 p' q) - rowMax Y' p') - Ideal.log s)
    (Finset.sum_congr rfl fun k _ => by rw [h k])

end Cert.PropSpec

end
-- ==== Proof.RefValue.lean ====
/-
  The reference's result is the specification. Its last value is the host's log-softmax of the host's product of the
  propagation matrix with the logits; the logits are a term of the other arguments (a gather, a scatter-add, a bias, a
  max with zero, a small product, a bias) that is never opened here: both programs compute it by the same operations.
-/
import proofs.«136042_j28587302322286_1_alg».proof.Proof.RefRun
import proofs.«136042_j28587302322286_1_alg».proof.Proof.LibHostLsm
import proofs.«136042_j28587302322286_1_alg».proof.Proof.LibMatmulIx
import proofs.«136042_j28587302322286_1_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The logits, as the host operations before the product compute them from the first six arguments. -/
def logits (a0 : (⟨S2x819200, .i32⟩ : BufTy).Contents (Elt Ideal)) (a1 : FVec Ideal S819200 .f32)
    (a2 : FVec Ideal S1024x64 .f32) (a3 : FVec Ideal S64 .f32)
    (a4 : FVec Ideal S64x16 .f32) (a5 : FVec Ideal S16 .f32) :
    FVec Ideal S16384x16 .f32 :=
  (addf (Host.dotGeneral dot_S16384x64_S64x16_S16384x16_1_0_0_1_n_n none (maximumf (addf (Host.scatterAdd scatter_S16384x64_S819200x1_S819200x64_1_0_0_1 (broadcastInDim S16384x64 ![] bcast_S_S16384x64 (constant S_ .f32 0x00000000#32)) (broadcastInDim S819200x1 ![0] bcast_S819200_S819200x1_0 (shapeCast _ (extractStridedSlice S1x819200 ![0, 0] a0 slices_S2x819200_S1x819200_0_0) shapeCasts_S1x819200_S819200)) (mulf (broadcastInDim S819200x64 ![0, 1] bcast_S819200x1_S819200x64_0_1 (broadcastInDim S819200x1 ![0] bcast_S819200_S819200x1_0 a1)) (Host.gather gather_S1024x64_S819200x1_S819200x64_1_0_n_n_0_1_164 a2 (broadcastInDim S819200x1 ![0] bcast_S819200_S819200x1_0 (select (cmpi .slt (shapeCast _ (extractStridedSlice S1x819200 ![1, 0] a0 slices_S2x819200_S1x819200_1_0) shapeCasts_S1x819200_S819200) (broadcastInDim S819200 ![] bcast_S_S819200 (constantI S_ 32 0#32))) (addi (shapeCast _ (extractStridedSlice S1x819200 ![1, 0] a0 slices_S2x819200_S1x819200_1_0) shapeCasts_S1x819200_S819200) (broadcastInDim S819200 ![] bcast_S_S819200 (constantI S_ 32 1024#32))) (shapeCast _ (extractStridedSlice S1x819200 ![1, 0] a0 slices_S2x819200_S1x819200_1_0) shapeCasts_S1x819200_S819200)))))) (broadcastInDim S16384x64 ![0, 1] bcast_S1x64_S16384x64_0_1 (broadcastInDim S1x64 ![1] bcast_S64_S1x64_1 a3))) (broadcastInDim S16384x64 ![] bcast_S_S16384x64 (constant S_ .f32 0x00000000#32))) a4) (broadcastInDim S16384x16 ![0, 1] bcast_S1x16_S16384x16_0_1 (broadcastInDim S1x16 ![1] bcast_S16_S1x16_1 a5)))

/-- The host's log-softmax along the rows of a [16384, 16] array, as the reference spells it. -/
def hostLogSoftmax (Y : FVec Ideal S16384x16 .f32) : FVec Ideal S16384x16 .f32 :=
  subf (subf Y (broadcastInDim S16384x16 ![0, 1] bcast_S16384x1_S16384x16_0_1 (broadcastInDim S16384x1 ![0] bcast_S16384_S16384x1_0
      (maximumf (broadcastInDim S16384 ![] bcast_S_S16384 (constant (F := Ideal) S_ .f32 0xFF800000#32))
        (Host.reduce FloatOps.maximumf Y (constant (F := Ideal) S_ .f32 0xFF800000#32) reducesTo_S16384x16_S16384_d1 h_S_)))))
    (broadcastInDim S16384x16 ![0, 1] bcast_S16384x1_S16384x16_0_1 (Host.log (broadcastInDim S16384x1 ![0] bcast_S16384_S16384x1_0
      (Host.reduceAdd (Host.exp (subf Y (broadcastInDim S16384x16 ![0, 1] bcast_S16384x1_S16384x16_0_1 (broadcastInDim S16384x1 ![0] bcast_S16384_S16384x1_0
        (maximumf (broadcastInDim S16384 ![] bcast_S_S16384 (constant (F := Ideal) S_ .f32 0xFF800000#32))
          (Host.reduce FloatOps.maximumf Y (constant (F := Ideal) S_ .f32 0xFF800000#32) reducesTo_S16384x16_S16384_d1 h_S_))))))
        (constant (F := Ideal) S_ .f32 0x00000000#32) reducesTo_S16384x16_S16384_d1 h_S_))))

set_option maxRecDepth 65536 in
/-- The run's result term is the host's log-softmax of the host's product of the last argument with the logits. -/
theorem res_eq (m : (ℓ : Loc nD τ sig) → Buf (Elt Ideal) ℓ) (c : Dev nD) :
    RunP.res_main_v26 (F := Ideal) m c
      = hostLogSoftmax (Host.dotGeneral (φ₁ := .f32) (φ₂ := .f32) dot_S16384x16384_S16384x16_S16384x16_1_0_0_1_n_n none (m ((c.tc : Thread nD τ).loc main_arg6) : FVec Ideal S16384x16384 .f32)
          (logits (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))) := by
  unfold RunP.res_main_v26 hostLogSoftmax logits
  rfl

/-- The host's product is the specification's product. -/
theorem dot_eq (P : FVec Ideal S16384x16384 .f32) (Z : FVec Ideal S16384x16 .f32) :
    Host.dotGeneral dot_S16384x16384_S16384x16_S16384x16_1_0_0_1_n_n none P Z = Cert.PropSpec.prod P Z := by
  funext j
  obtain ⟨r, q, rfl⟩ : ∃ (r : Fin 16384) (q : Fin 16), j = ix2 r q := ⟨j 0, j 1, eq_ix2 j⟩
  exact MatmulIx.dotGeneral_ix2 dot_S16384x16384_S16384x16_S16384x16_1_0_0_1_n_n rfl rfl (fun _ _ => rfl) (fun _ _ => rfl)
    (fun _ _ => rfl) (fun _ _ => rfl) none P Z r q

/-- The host's log-softmax is the specification's, entry by entry. -/
theorem hostLogSoftmax_eq (Y : FVec Ideal S16384x16 .f32) (i : S16384x16.Idx) :
    hostLogSoftmax Y i = Cert.RowLsm.lsm Y (i 0) (i 1) := by
  obtain ⟨r, q, rfl⟩ : ∃ (r : Fin 16384) (q : Fin 16), i = ix2 r q := ⟨i 0, i 1, eq_ix2 i⟩
  unfold hostLogSoftmax
  exact Cert.RowLsm.host_lsm Y reducesTo_S16384x16_S16384_d1 (by decide) h_S_ bcast_S_S16384 bcast_S16384_S16384x1_0
    bcast_S16384x1_S16384x16_0_1 r q

/-- THE REFERENCE'S RESULT is `G` of the propagation matrix and the logits. -/
theorem result_eq (m : (ℓ : Loc nD τ sig) → Buf (Elt Ideal) ℓ) (c : Dev nD) :
    RunP.res_main_v26 (F := Ideal) m c
      = Cert.PropSpec.G (m ((c.tc : Thread nD τ).loc main_arg6))
          (logits (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))) := by
  rw [res_eq, dot_eq]
  funext i
  exact hostLogSoftmax_eq _ i

end Cert.ReferenceIdeal.RefValue

end
-- ==== Proof.Pieces.lean ====
/-
  What one grid point's body leaves, read back as values of the loaded blocks: the accumulator after the first point of a
  row block's sweep is the zero block plus the first partial product; after any later point it is what the point before
  left plus that point's partial product; and at the last point of the sweep the output block is the row-wise
  log-softmax of the accumulator just completed. The stores each cover their whole buffer, so the buffer's contents are the
  last store's value; a load of what an earlier store of the same point left reads that store's value.
-/
import proofs.«136042_j28587302322286_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a sweep: the accumulator is zeroed, read back, and the point's partial product added. -/
theorem acc_first (c : Dev nD) (i : grid0.Coords) (a2 : Memref sig .tc .vmem S1024x2048 .f32) (h2 : a2.IsWhole)
    (a3 : Memref sig .tc .vmem S2048x16 .f32) (h3 : a3.IsWhole) (a4 : Memref sig .tc .vmem S1024x16 .f32) (h4 : a4.IsWhole)
    (a5 : Memref sig .tc .vmem S1024x16 .f32) (h5 : a5.IsWhole) (hc0 : cond0_0 i) (hc1 : ¬cond0_1 i)
    (x0 : Vec F S1024x2048 .f32) (x1 : Vec F S2048x16 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x16) hz, View.readCov_unit_zero (S := S1024x16) _ hz]
  simp only [View.readAt_eq_ld, h2.read_unread, h3.read_unread, View.ld_unit_zero (S := S1024x2048) hz,
    View.ld_unit_zero (S := S2048x16) hz]

/-- A middle point of a sweep: the accumulator the point before left, plus the point's partial product. -/
theorem acc_middle (c : Dev nD) (i : grid0.Coords) (a2 : Memref sig .tc .vmem S1024x2048 .f32) (h2 : a2.IsWhole)
    (a3 : Memref sig .tc .vmem S2048x16 .f32) (h3 : a3.IsWhole) (a4 : Memref sig .tc .vmem S1024x16 .f32) (h4 : a4.IsWhole)
    (a5 : Memref sig .tc .vmem S1024x16 .f32) (h5 : a5.IsWhole) (hc0 : ¬cond0_0 i) (hc1 : ¬cond0_1 i)
    (x0 : Vec F S1024x2048 .f32) (x1 : Vec F S2048x16 .f32) (xs0 : Vec F S1024x16 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x2048) hz,
    View.ld_unit_zero (S := S2048x16) hz, View.ld_unit_zero (S := S1024x16) hz]

/-- The last point of a sweep leaves in the accumulator the same as a middle point does. -/
theorem acc_last (c : Dev nD) (i : grid0.Coords) (a2 : Memref sig .tc .vmem S1024x2048 .f32) (h2 : a2.IsWhole)
    (a3 : Memref sig .tc .vmem S2048x16 .f32) (h3 : a3.IsWhole) (a4 : Memref sig .tc .vmem S1024x16 .f32) (h4 : a4.IsWhole)
    (a5 : Memref sig .tc .vmem S1024x16 .f32) (h5 : a5.IsWhole) (hc0 : ¬cond0_0 i) (hc1 : cond0_1 i)
    (x0 : Vec F S1024x2048 .f32) (x1 : Vec F S2048x16 .f32) (xs0 : Vec F S1024x16 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x2048) hz,
    View.ld_unit_zero (S := S2048x16) hz, View.ld_unit_zero (S := S1024x16) hz]

/-- … and in the output block the epilogue of the accumulator it has just completed. -/
theorem out_last (c : Dev nD) (i : grid0.Coords) (a2 : Memref sig .tc .vmem S1024x2048 .f32) (h2 : a2.IsWhole)
    (a3 : Memref sig .tc .vmem S2048x16 .f32) (h3 : a3.IsWhole) (a4 : Memref sig .tc .vmem S1024x16 .f32) (h4 : a4.IsWhole)
    (a5 : Memref sig .tc .vmem S1024x16 .f32) (h5 : a5.IsWhole) (hc0 : ¬cond0_0 i) (hc1 : cond0_1 i)
    (x0 : Vec F S1024x2048 .f32) (x1 : Vec F S2048x16 .f32) (xs0 : Vec F S1024x16 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x16) _ hz]
  simp only [View.readAt_eq_ld, h2.read_unread, h3.read_unread, h5.read_unread, View.ld_unit_zero (S := S1024x2048) hz,
    View.ld_unit_zero (S := S2048x16) hz, View.ld_unit_zero (S := S1024x16) hz]

end Cert.KernelIdeal.Pieces

end
-- ==== Proof.Payloads.lean ====
/-
  The body's three values at an entry, on the extended reals: the block of zeros is 0; the accumulator's update at (p, q) is
  the accumulator's entry plus the product of row p of the left block with column q of the right block (the two
  changes of float format are the identity there); the epilogue at (p, q) is the row-wise log-softmax, shifted by the
  row's maximum, of its operand.
-/
import proofs.«136042_j28587302322286_1_alg».proof.Proof.Gen.KernelIdeal.Skeleton
import proofs.«136042_j28587302322286_1_alg».proof.Proof.LibRowLsm
import proofs.«136042_j28587302322286_1_alg».proof.Proof.LibMatmulIx
import Idealize.ShloMosaic.Lib.Pipeline.Value

noncomputable section

namespace Cert.KernelIdeal.Payloads

open Cert.KernelIdeal Cert.KernelIdeal.Gen Idealize.ShloMosaic Idealize.ShloMosaic.ValueIdx

/-- The block the first point of a sweep stores is zero everywhere. -/
theorem zero_apply (i : S1024x16.Idx) : k0_pay1 (F := Ideal) i = 0 := by
  unfold k0_pay1
  simp only [shapeCast_self]
  exact Ideal.ofBits_zero_f32

/-- The accumulator's update at an entry. -/
theorem update_apply (x0 : Vec Ideal S1024x2048 .f32) (x1 : Vec Ideal S2048x16 .f32) (acc : Vec Ideal S1024x16 .f32)
    (p : Fin 1024) (q : Fin 16) :
    k0_pay2 x0 x1 acc (ix2 p q) = acc (ix2 p q) + ∑ k : Fin 2048, x0 (ix2 p k) * x1 (ix2 k q) := by
  unfold k0_pay2
  simp only [shapeCast_self]
  rw [addf_apply]
  refine congrArg (acc (ix2 p q) + ·) ?_
  exact MatmulIx.matmul_zero_ix2 dot_S1024x2048_S2048x16_S1024x16_1_0_0_1_n_n rfl rfl (fun _ _ => rfl) (fun _ _ => rfl)
    (fun _ _ => rfl) (fun _ _ => rfl) none _ _ p q

/-- The epilogue at an entry. -/
theorem epilogue_apply (v : Vec Ideal S1024x16 .f32) (p : Fin 1024) (q : Fin 16) :
    k0_pay3 v (ix2 p q) = Cert.RowLsm.lsm v p q := by
  unfold k0_pay3
  exact Cert.RowLsm.vec_lsm v _ _ _ _ _ _ p q

end Cert.KernelIdeal.Payloads

end
-- ==== Proof.KernelLogits.lean ====
/-
  The logits as the region finds them: the array the kernel's second window stages is, when the region is entered, the
  host operations' term of the first six arguments — a gather, a scatter-add, a bias, a max with zero, a small product,
  a bias — which is never opened: the reference computes the same term.
-/
import proofs.«136042_j28587302322286_1_alg».proof.Proof.Gen.KernelIdeal.Frame
import proofs.«136042_j28587302322286_1_alg».proof.Proof.LibTRef
import Idealize.ShloMosaic.Lib.StableHlo.Run
import Idealize.ShloMosaic.PureOps.Ideal

noncomputable section

namespace Cert.KernelIdeal.KLogits

open Cert.KernelIdeal Cert.KernelIdeal.Gen Idealize.ShloMosaic Idealize.ShloMosaic.TcCoe Idealize.SL.Sem Idealize.ShloMosaic.StableHlo

/-- The logits, as the host operations before the region compute them from the first six arguments. -/
def logits (a0 : (⟨S2x819200, .i32⟩ : BufTy).Contents (Elt Ideal)) (a1 : FVec Ideal S819200 .f32)
    (a2 : FVec Ideal S1024x64 .f32) (a3 : FVec Ideal S64 .f32)
    (a4 : FVec Ideal S64x16 .f32) (a5 : FVec Ideal S16 .f32) :
    FVec Ideal S16384x16 .f32 :=
  (addf (Host.dotGeneral dot_S16384x64_S64x16_S16384x16_1_0_0_1_n_n none (maximumf (addf (Host.scatterAdd scatter_S16384x64_S819200x1_S819200x64_1_0_0_1 (broadcastInDim S16384x64 ![] bcast_S_S16384x64 (constant S_ .f32 0x00000000#32)) (broadcastInDim S819200x1 ![0] bcast_S819200_S819200x1_0 (shapeCast _ (extractStridedSlice S1x819200 ![0, 0] a0 slices_S2x819200_S1x819200_0_0) shapeCasts_S1x819200_S819200)) (mulf (broadcastInDim S819200x64 ![0, 1] bcast_S819200x1_S819200x64_0_1 (broadcastInDim S819200x1 ![0] bcast_S819200_S819200x1_0 a1)) (Host.gather gather_S1024x64_S819200x1_S819200x64_1_0_n_n_0_1_164 a2 (broadcastInDim S819200x1 ![0] bcast_S819200_S819200x1_0 (select (cmpi .slt (shapeCast _ (extractStridedSlice S1x819200 ![1, 0] a0 slices_S2x819200_S1x819200_1_0) shapeCasts_S1x819200_S819200) (broadcastInDim S819200 ![] bcast_S_S819200 (constantI S_ 32 0#32))) (addi (shapeCast _ (extractStridedSlice S1x819200 ![1, 0] a0 slices_S2x819200_S1x819200_1_0) shapeCasts_S1x819200_S819200) (broadcastInDim S819200 ![] bcast_S_S819200 (constantI S_ 32 1024#32))) (shapeCast _ (extractStridedSlice S1x819200 ![1, 0] a0 slices_S2x819200_S1x819200_1_0) shapeCasts_S1x819200_S819200)))))) (broadcastInDim S16384x64 ![0, 1] bcast_S1x64_S16384x64_0_1 (broadcastInDim S1x64 ![1] bcast_S64_S1x64_1 a3))) (broadcastInDim S16384x64 ![] bcast_S_S16384x64 (constant S_ .f32 0x00000000#32))) a4) (broadcastInDim S16384x16 ![0, 1] bcast_S1x16_S16384x16_0_1 (broadcastInDim S1x16 ![1] bcast_S16_S1x16_1 a5)))

/-- Contents moved to the buffer of the max-with-zero's result, or read from the buffer of its operand, are the contents:
    both buffers have the value's own type. -/
theorem toBuf_v20 (h1 h2 h3) (v : (⟨S16384x64, .f32⟩ : BufTy).Contents (Elt Ideal)) :
    (TRef.of (T := ⟨S16384x64, .f32⟩) main_v20 h1 h2 h3).toBuf v = v := rfl
theorem ofBuf_v19 (h1 h2 h3) (v : (⟨S16384x64, .f32⟩ : BufTy).Contents (Elt Ideal)) :
    (TRef.of (T := ⟨S16384x64, .f32⟩) main_v19 h1 h2 h3).ofBuf v = v := rfl

set_option maxRecDepth 65536 in
/-- When the region is entered the second window's array holds the logits. -/
theorem V_logits (m : (ℓ : Loc nD τ sig) → Buf (Elt Ideal) ℓ) (c : Dev nD) :
    (V m c main_v24 : FVec Ideal S16384x16 .f32)
      = logits (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  dsimp only [Gen.V]
  simp only [Gen.hostOps0, Gen.hostOps0_1, Gen.hostOps0_2, List.flatten_cons, List.flatten_nil, List.append_nil,
    List.cons_append, List.nil_append]
  after_results_simp
  simp only [Cert.LibTRef.ofBuf_toBuf, toBuf_v20, ofBuf_v19]
  unfold logits
  rfl

end Cert.KernelIdeal.KLogits

end
-- ==== Proof.LibSweepSum.lean ====
/-
  Sums taken block by block, in sweeps that restart.

  A sum over N = B · S consecutive rows is the sum, over the B blocks, of each block's S rows (`sum_blocks`). A running
  total that restarts from zero at every step whose number is a multiple of L, and otherwise adds the step's term to the
  previous total, holds at position k of a sweep the sum of the sweep's first k + 1 terms (`sweep_prefix`). Together:
  two sweeps of 32 steps, each step adding one block of 1024 consecutive rows, end with totals that add up to the sum
  over all 65536 rows (`sweep_total`). Only that addition is commutative and associative with neutral element 0 is
  used.
-/
import Mathlib.Algebra.BigOperators.Fin
import Mathlib.Algebra.BigOperators.Intervals
import Mathlib.Logic.Equiv.Fin.Basic

open scoped BigOperators

namespace Cert.LibSweepSum

/-- Row p of block n of size S lies below B · S. -/
theorem blk_lt {B S : ℕ} (n : Fin B) (p : Fin S) : S * n.val + p.val < B * S :=
  calc S * n.val + p.val < S * n.val + S := Nat.add_lt_add_left p.isLt _
    _ = S * (n.val + 1) := (Nat.mul_succ S n.val).symm
    _ ≤ S * B := Nat.mul_le_mul_left S n.isLt
    _ = B * S := Nat.mul_comm S B

/-- A sum over B · S consecutive rows is the sum over the B blocks of each block's S rows. -/
theorem sum_blocks {M : Type*} [AddCommMonoid M] (B S N : ℕ) (hN : N = B * S) (f : Fin N → M) :
    ∑ r : Fin N, f r = ∑ n : Fin B, ∑ p : Fin S, f ⟨S * n.val + p.val, hN ▸ blk_lt n p⟩ := by
  subst hN
  rw [← Equiv.sum_comp finProdFinEquiv f, Fintype.sum_prod_type]
  refine Finset.sum_congr rfl fun n _ => Finset.sum_congr rfl fun p _ => congrArg f (Fin.ext ?_)
  show (finProdFinEquiv (n, p)).val = S * n.val + p.val
  rw [finProdFinEquiv_apply_val, Nat.add_comm]

/-- A running total `A` that restarts at the multiples of `L` (there it is `0` plus the step's term `g`) and otherwise
    adds the step's term to the previous total: at position `k` of the sweep that starts at `a` it is the sum of that
    sweep's first `k + 1` terms. -/
theorem sweep_prefix {M : Type*} [AddCommMonoid M] (g A : ℕ → M) (L N : ℕ)
    (hfirst : ∀ n, n < N → n % L = 0 → A n = 0 + g n)
    (hnext : ∀ n, n < N → n % L ≠ 0 → A n = A (n - 1) + g n)
    (a : ℕ) (ha : a % L = 0) (k : ℕ) (hk : k < L) (h : a + k < N) :
    A (a + k) = ∑ m ∈ Finset.range (k + 1), g (a + m) := by
  induction k with
  | zero =>
    rw [Nat.add_zero, hfirst a (by omega) ha, zero_add, Finset.sum_range_one, Nat.add_zero]
  | succ k ih =>
    obtain ⟨c, rfl⟩ := Nat.dvd_of_mod_eq_zero ha
    have hne : (L * c + (k + 1)) % L ≠ 0 := by
      rw [Nat.mul_add_mod, Nat.mod_eq_of_lt hk]
      exact Nat.succ_ne_zero k
    rw [hnext _ h hne, show L * c + (k + 1) - 1 = L * c + k from by omega, ih (by omega) (by omega),
      Finset.sum_range_succ _ (k + 1)]

/-- Two sweeps of 32 steps over 64 blocks of 1024 consecutive rows: the running total restarts from zero at steps 0 and
    32 and each step adds its block's sum; the totals after steps 31 and 63 add up to the sum over all 65536 rows. -/
theorem sweep_total {M : Type*} [AddCommMonoid M] (f : Fin 65536 → M) (acc : (n : ℕ) → n < 64 → M)
    (hfirst : ∀ n (hn : n < 64), n % 32 = 0 → acc n hn = 0 + ∑ p : Fin 1024, f ⟨1024 * n + p.val, by omega⟩)
    (hnext : ∀ n (hn : n < 64), n % 32 ≠ 0 →
      acc n hn = acc (n - 1) (by omega) + ∑ p : Fin 1024, f ⟨1024 * n + p.val, by omega⟩) :
    acc 31 (by omega) + acc 63 (by omega) = ∑ r : Fin 65536, f r := by
  -- the step's term and the running total as functions of every natural number
  let g : ℕ → M := fun n => if hn : n < 64 then ∑ p : Fin 1024, f ⟨1024 * n + p.val, by omega⟩ else 0
  let A : ℕ → M := fun n => if hn : n < 64 then acc n hn else 0
  have hg : ∀ n (hn : n < 64), g n = ∑ p : Fin 1024, f ⟨1024 * n + p.val, by omega⟩ := fun n hn => dif_pos hn
  have hA : ∀ n (hn : n < 64), A n = acc n hn := fun n hn => dif_pos hn
  have h0 : ∀ n, n < 64 → n % 32 = 0 → A n = 0 + g n := fun n hn hz => by
    rw [hA n hn, hg n hn]; exact hfirst n hn hz
  have h1 : ∀ n, n < 64 → n % 32 ≠ 0 → A n = A (n - 1) + g n := fun n hn hz => by
    rw [hA n hn, hA (n - 1) (by omega), hg n hn]; exact hnext n hn hz
  have e1 : A 31 = ∑ m ∈ Finset.range 32, g (0 + m) := sweep_prefix g A 32 64 h0 h1 0 rfl 31 (by omega) (by omega)
  have e2 : A 63 = ∑ m ∈ Finset.range 32, g (32 + m) := sweep_prefix g A 32 64 h0 h1 32 rfl 31 (by omega) (by omega)
  rw [← hA 31 (by omega), ← hA 63 (by omega), e1, e2]
  simp only [Nat.zero_add]
  rw [← Finset.sum_range_add g 32 32, ← Fin.sum_univ_eq_sum_range g (32 + 32),
    sum_blocks 64 1024 65536 (by decide) f]
  exact Finset.sum_congr rfl fun n _ => hg n.val n.isLt

end Cert.LibSweepSum
-- ==== Proof.KernelBlocks.lean ====
/-
  The accumulator of the kernel, point by point.

  The grid is 16 row blocks (of 1024 rows) by 8 column blocks (of 2048 columns of the propagation matrix); point t is row
  block t / 8, column block t % 8. The propagation matrix's block at point t, entry (p, k), is the matrix's entry
  (1024·(t/8) + p, 2048·(t%8) + k); the logits' block, entry (k, q), is the logits' entry (2048·(t%8) + k, q). The
  accumulator after point t of a row block's sweep holds, at (p, q), zero plus the sum over the sweep's points s ≤ t of
  the partial products ∑ k, (block of P at s)(p, k) · (block of Z at s)(k, q).
-/
import proofs.«136042_j28587302322286_1_alg».proof.Proof.Gen.KernelIdeal.Value
import proofs.«136042_j28587302322286_1_alg».proof.Proof.Pieces
import proofs.«136042_j28587302322286_1_alg».proof.Proof.Payloads
import proofs.«136042_j28587302322286_1_alg».proof.Proof.Spec
import proofs.«136042_j28587302322286_1_alg».proof.Proof.KernelLogits
import proofs.«136042_j28587302322286_1_alg».proof.Proof.LibSweepSum
import Idealize.ShloMosaic.Lib.Pipeline.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Idealize.ShloMosaic.ValueIdx

variable (m : (ℓ : Loc nD τ sig) → Buf (Elt Ideal) ℓ) (ρ : Dev nD → PrngReg)

/-- The propagation matrix and the logits, as the arguments give them. -/
abbrev matP (c : Dev nD) : FVec Ideal S16384x16384 .f32 := m ((c.tc : Thread nD τ).loc main_arg6)
abbrev matZ (c : Dev nD) : FVec Ideal S16384x16 .f32 :=
  Cert.KernelIdeal.KLogits.logits (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- The result array's contents. -/
abbrev result (c : Dev nD) : Buf (Elt Ideal) ((c : Thread nD τ).loc main_v25) := Cert.PropSpec.G (matP m c) (matZ m c)

/-- The index maps over the grid: point `t` is row block `t / 8`, column block `t % 8`. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The two input blocks at a point, at their literal shapes. -/
def blkP (c : Dev nD) (t : Fin cfg0.N) : Vec Ideal S1024x2048 .f32 := iblk m c 0 t
def blkZ (c : Dev nD) (t : Fin cfg0.N) : Vec Ideal S2048x16 .f32 := iblk m c 1 t

/-- The propagation matrix's block at point `t`, entry (p, k): the matrix at (1024·(t/8) + p, 2048·(t%8) + k). -/
theorem blockP_apply (c : Dev nD) (t : Fin cfg0.N) (p : Fin 1024) (k : Fin 2048) (R K : Fin 16384)
    (hR : R.val = 1024 * (t.val / 8) + p.val) (hK : K.val = 2048 * (t.val % 8) + k.val) :
    blkP m c t (ix2 p k) = matP m c (ix2 R K) := by
  obtain ⟨e0, e1, -⟩ := idx_facts t
  unfold blkP iblk
  rw [View.read_apply]
  show V m c main_arg6 _ = m ((c.tc : Thread nD τ).loc main_arg6) _
  refine (congrFun (V_main_arg6 m c) _).trans (congrArg _ (funext fun a => Fin.ext ?_))
  match a with
  | ⟨0, _⟩ => show win0_0.index t (0 : Fin 2) * 1024 + 1 * p.val = R.val; rw [e0, hR]; omega
  | ⟨1, _⟩ => show win0_0.index t (1 : Fin 2) * 2048 + 1 * k.val = K.val; rw [e1, hK]; omega

/-- Any [16384, 16] array read through the second window's block at point `t`: entry (k, q) of the block is the array's
    entry (2048·(t%8) + k, q). -/
theorem blockZ_read (Zv : FVec Ideal S16384x16 .f32) (t : Fin cfg0.N) (k : Fin 2048) (q : Fin 16) (K : Fin 16384)
    (hK : K.val = 2048 * (t.val % 8) + k.val) :
    (((cfg0.win 1).blk t).view.read (Elt Ideal) Zv : Vec Ideal S2048x16 .f32) (ix2 k q) = Zv (ix2 K q) := by
  obtain ⟨-, -, e2, e3, -⟩ := idx_facts t
  rewrite [View.read_apply]
  refine congrArg Zv (funext fun a => Fin.ext ?_)
  match a with
  | ⟨0, _⟩ => show win0_1.index t (0 : Fin 2) * 2048 + 1 * k.val = K.val; rw [e2, hK]; omega
  | ⟨1, _⟩ => show win0_1.index t (1 : Fin 2) * 16 + 1 * q.val = q.val; rw [e3]; omega

/-- The logits' block at point `t`, entry (k, q): the logits at (2048·(t%8) + k, q). -/
theorem blockZ_apply (c : Dev nD) (t : Fin cfg0.N) (k : Fin 2048) (q : Fin 16) (K : Fin 16384)
    (hK : K.val = 2048 * (t.val % 8) + k.val) :
    blkZ m c t (ix2 k q) = matZ m c (ix2 K q) := by
  have hV : V m c (Pipeline.arrRef spec0 1) = matZ m c := Cert.KernelIdeal.KLogits.V_logits m c
  unfold blkZ iblk
  rewrite [hV]
  exact blockZ_read (matZ m c) t k q K hK

/-- Point `n`'s partial product at an entry of the accumulator (zero past the grid, where it is never used). -/
def part (c : Dev nD) (n : ℕ) (i : S1024x16.Idx) : EReal :=
  if h : n < cfg0.N then
    ∑ k : Fin 2048, blkP m c ⟨n, h⟩ (ix2 (i 0) k) * blkZ m c ⟨n, h⟩ (ix2 k (i 1))
  else 0

/-- The first point of a sweep leaves zero plus its partial product. -/
theorem first_apply (c : Dev nD) (n : ℕ) (hb : n < cfg0.N) (hn : n % 8 = 0) (acc : Vec Ideal S1024x16 .f32) (i : S1024x16.Idx) :
    scAt0_0 m c n hb acc i = 0 + part m c n i := by
  obtain ⟨p, q, rfl⟩ : ∃ (p : Fin 1024) (q : Fin 16), i = ix2 p q := ⟨i 0, i 1, eq_ix2 i⟩
  have h7 : ¬n % 8 = 7 := by omega
  unfold scAt0_0
  rw [dif_pos hn, dif_neg h7, Cert.KernelIdeal.Pieces.acc_first]
  refine (Cert.KernelIdeal.Payloads.update_apply (blkP m c ⟨n, hb⟩) (blkZ m c ⟨n, hb⟩) (k0_pay1 (F := Ideal)) p q).trans ?_
  rw [Cert.KernelIdeal.Payloads.zero_apply]
  unfold part
  rw [dif_pos hb]

/-- Every later point of a sweep adds its partial product to what the point before left. -/
theorem next_apply (c : Dev nD) (n : ℕ) (hb : n < cfg0.N) (hn : ¬n % 8 = 0) (acc : Vec Ideal S1024x16 .f32) (i : S1024x16.Idx) :
    scAt0_0 m c n hb acc i = acc i + part m c n i := by
  obtain ⟨p, q, rfl⟩ : ∃ (p : Fin 1024) (q : Fin 16), i = ix2 p q := ⟨i 0, i 1, eq_ix2 i⟩
  unfold scAt0_0
  rw [dif_neg hn]
  by_cases h7 : n % 8 = 7
  · rw [dif_pos h7, Cert.KernelIdeal.Pieces.acc_last]
    refine (Cert.KernelIdeal.Payloads.update_apply (blkP m c ⟨n, hb⟩) (blkZ m c ⟨n, hb⟩) acc p q).trans ?_
    unfold part
    rw [dif_pos hb]
  · rw [dif_neg h7, Cert.KernelIdeal.Pieces.acc_middle]
    refine (Cert.KernelIdeal.Payloads.update_apply (blkP m c ⟨n, hb⟩) (blkZ m c ⟨n, hb⟩) acc p q).trans ?_
    unfold part
    rw [dif_pos hb]

/-- THE ACCUMULATOR after point `t`: zero plus the partial products of the sweep's points up to `t`. -/
theorem acc_apply (c : Dev nD) (t : Fin cfg0.N) (i : S1024x16.Idx) :
    (outsAt0 m c t.val t.isLt).2 i
      = 0 + ∑ s ∈ Finset.range (t.val % 8 + 1), part m c (8 * (t.val / 8) + s) i := by
  rw [soutsAt0_0_eq m c t]
  exact Pipeline.accAt_add_apply (β := EReal) (fun n h => scAt0_0 m c n h (VS0_0.read (Elt Ideal) VS0_0.junk)) (scAt0_0 m c)
    (fun _ => 0) (part m c) (8 * (t.val / 8)) 7
    (fun h i => first_apply m c _ h (by omega) _ i)
    (fun n h acc i hlo hhi => next_apply m c n h (by omega) acc i)
    (t.val % 8) (by omega) _ i

end Cert.KernelIdeal.KValue

end
-- ==== Proof.KernelValue.lean ====
/-
  What the kernel's result array holds after its run, as one function of the argument arrays.

  After the eighth point of a row block's sweep the accumulator's entry (p, q) is the full product's entry
  (1024·(t/8) + p, q), because a sum over 16384 columns is the sum over the eight blocks of 2048 (addition of extended
  reals is commutative and associative: no finiteness is used). That point writes back the row-wise log-softmax of the
  completed accumulator, which depends on each row alone, so the block it writes is the block of the whole result; the
  sixteen written blocks tile the result array.
-/
import proofs.«136042_j28587302322286_1_alg».proof.Proof.Gen.KernelIdeal.Value
import proofs.«136042_j28587302322286_1_alg».proof.Proof.KernelBlocks
import proofs.«136042_j28587302322286_1_alg».proof.Proof.Pieces
import proofs.«136042_j28587302322286_1_alg».proof.Proof.Payloads
import proofs.«136042_j28587302322286_1_alg».proof.Proof.Spec
import proofs.«136042_j28587302322286_1_alg».proof.Proof.KernelLogits
import proofs.«136042_j28587302322286_1_alg».proof.Proof.LibSweepSum
import Idealize.ShloMosaic.Lib.Pipeline.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Idealize.ShloMosaic.ValueIdx

variable (m : (ℓ : Loc nD τ sig) → Buf (Elt Ideal) ℓ) (ρ : Dev nD → PrngReg)

/-- An entry of the block the last point of a sweep writes back is the result at the entry's place in the array. -/
theorem block_entry (c : Dev nD) (t : Fin cfg0.N) (h7 : t.val % 8 = 7) (y : S1024x16.Idx) (I : S16384x16.Idx)
    (hI0 : (I 0).val = 1024 * (t.val / 8) + (y 0).val) (hI1 : (I 1).val = (y 1).val) :
    k0_pay3 ((outsAt0 m c t.val t.isLt).2) y = result m c I := by
  obtain ⟨p, q, rfl⟩ : ∃ (p : Fin 1024) (q : Fin 16), y = ix2 p q := ⟨y 0, y 1, eq_ix2 y⟩
  have hq : I 1 = q := Fin.ext hI1
  have hN : cfg0.N = 128 := N_0
  have htN := t.isLt
  refine (Cert.KernelIdeal.Payloads.epilogue_apply _ p q).trans ?_
  show _ = Cert.RowLsm.lsm (Cert.PropSpec.prod (matP m c) (matZ m c)) (I 0) (I 1)
  rw [hq]
  refine Cert.PropSpec.lsm_congr_row _ _ p (I 0) (fun k => ?_) q
  show _ = ∑ r : Fin 16384, matP m c (ix2 (I 0) r) * matZ m c (ix2 r k)
  rw [acc_apply m c t (ix2 p k), zero_add, h7,
    Cert.LibSweepSum.sum_blocks 8 2048 16384 rfl (fun r => matP m c (ix2 (I 0) r) * matZ m c (ix2 r k)), Finset.sum_range]
  refine Finset.sum_congr rfl fun s _ => ?_
  have hs := s.isLt
  have hlt : 8 * (t.val / 8) + s.val < cfg0.N := by omega
  unfold part
  rw [dif_pos hlt]
  refine Finset.sum_congr rfl fun kk _ => ?_
  have hkk := kk.isLt
  have hK : 2048 * s.val + kk.val < 16384 := by omega
  show blkP m c ⟨_, hlt⟩ (ix2 p kk) * blkZ m c ⟨_, hlt⟩ (ix2 kk k)
    = matP m c (ix2 (I 0) ⟨2048 * s.val + kk.val, hK⟩) * matZ m c (ix2 ⟨2048 * s.val + kk.val, hK⟩ k)
  rw [blockP_apply m c ⟨_, hlt⟩ p kk (I 0) ⟨2048 * s.val + kk.val, hK⟩
      (by show (I 0).val = 1024 * ((8 * (t.val / 8) + s.val) / 8) + p.val; rw [hI0]; show 1024 * (t.val / 8) + p.val = _; omega)
      (by show 2048 * s.val + kk.val = 2048 * ((8 * (t.val / 8) + s.val) % 8) + kk.val; omega),
    blockZ_apply m c ⟨_, hlt⟩ kk k ⟨2048 * s.val + kk.val, hK⟩
      (by show 2048 * s.val + kk.val = 2048 * ((8 * (t.val / 8) + s.val) % 8) + kk.val; omega)]

/-- WHAT A FLUSHING POINT WRITES BACK is its block of the result. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have h0 : ¬t.val % 8 = 0 := by omega
  obtain ⟨-, -, -, -, e4, e5⟩ := idx_facts t
  have hs : (outsAt0 m c t.val t.isLt).2
      = k0_pay2 (F := Ideal) (iblk m c 0 t) (iblk m c 1 t) (outsAt0 m c (t.val - 1) (Nat.lt_of_le_of_lt (Nat.sub_le _ _) t.isLt)).2 := by
    rw [outsAt0_C m c t h0 h7]
    dsimp only
    rw [Cert.KernelIdeal.Pieces.acc_last]
  rw [flushed2_C m c t h0 h7, Cert.KernelIdeal.Pieces.out_last, ← hs]
  funext y
  rewrite [View.read_apply]
  exact block_entry m c t h7 ((cfg0.win 2).xinj (grid0.coords t) y) (((cfg0.win 2).blk t).view.emb y)
    (by show win0_2.index t (0 : Fin 2) * 1024 + 1 * (y 0).val = 1024 * (t.val / 8) + (y 0).val; rw [e4]; omega)
    (by show win0_2.index t (1 : Fin 2) * 16 + 1 * (y 1).val = (y 1).val; rw [e5]; omega)

/-- An index of the array is in point `t`'s block iff each coordinate is in the block's range on its axis. -/
theorem mem_blk (t : Fin cfg0.N) (i : S16384x16.Idx) :
    i ∈ ((cfg0.win 2).blk t).view.set ↔ ∀ a : Fin 2, win0_2.index t a * S1024x16.size a ≤ (i a).val
      ∧ (i a).val < win0_2.index t a * S1024x16.size a + S1024x16.size a := by
  show i ∈ ((View.whole main_v25).slice (win0_2.rect t)).set ↔ _
  rw [View.set_slice_whole, Rect.mem_set_unit]
  exact Iff.rfl

/-- Every row of the result lies in the block the last point of its row block's sweep writes back. -/
theorem cover (i : S16384x16.Idx) : ∃ t : Fin cfg0.N, (cfg0.win 2).flush t = true ∧ i ∈ ((cfg0.win 2).blk t).view.set := by
  have hi0 : (i 0).val < 16384 := (i 0).isLt
  have hi1 : (i 1).val < 16 := (i 1).isLt
  have hN : cfg0.N = 128 := N_0
  refine ⟨⟨8 * ((i 0).val / 1024) + 7, by omega⟩, (flush0_2 _).mpr (by show (8 * ((i 0).val / 1024) + 7) % 8 = 7; omega), ?_⟩
  obtain ⟨-, -, -, -, e4, e5⟩ := idx_facts ⟨8 * ((i 0).val / 1024) + 7, by omega⟩
  rw [mem_blk]
  intro a
  match a with
  | ⟨0, _⟩ =>
    show win0_2.index _ (0 : Fin 2) * 1024 ≤ (i 0).val ∧ (i 0).val < win0_2.index _ (0 : Fin 2) * 1024 + 1024
    rw [e4]; show (8 * ((i 0).val / 1024) + 7) / 8 * 1024 ≤ (i 0).val ∧ (i 0).val < (8 * ((i 0).val / 1024) + 7) / 8 * 1024 + 1024
    omega
  | ⟨1, _⟩ =>
    show win0_2.index _ (1 : Fin 2) * 16 ≤ (i 1).val ∧ (i 1).val < win0_2.index _ (1 : Fin 2) * 16 + 16
    rw [e5]; omega

/-- THE RESULT ARRAY after the run. -/
theorem final (c : Dev nD) : (dats m 0 c).arrAt 2 cfg0.N = result m c :=
  (dats m 0 c).arrAt_eq_of_cover 2 (result m c) (fun t hf => flushed_eq m c t hf) cover

/-- The run, read: the result array at `G` of the propagation matrix and the logits, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.KValue

end
-- ==== Proof.lean ====
/-
  The propagation step of a graph network, fused with its row-wise log-softmax, against its plain reference.

  Both programs first compute the logits Z [16384, 16] from the sparse features by the same host operations (a gather of
  weight rows, a scatter-add into the nodes, a bias, a max with zero, a small product, a bias). The reference then takes the
  product P·Z of the dense propagation matrix P [16384, 16384] with the logits and the log-softmax of its rows, in the form
  shifted by the row maximum: (y - M) - log ∑ exp (y - M). The kernel computes the product block by block — for each block
  of 1024 rows it sweeps the eight blocks of 2048 columns of P, adding each partial product into an accumulator it zeroed at
  the sweep's first point — and, at the sweep's last point, applies the same shifted log-softmax to the accumulator's rows
  and writes the block back.

  On the extended reals the two results are equal entry by entry: a change of float format is the identity, a sum over
  16384 columns is the sum of its eight blocks' sums (addition is commutative and associative there, infinities
  included, so no finiteness of the inputs is used), the two spellings of the row maximum are one fold of max from ⊥, and
  the two spellings of the row sum are one finite sum. The three frames are the programs' runs with their results
  dropped; the idealization rewrote nothing.
-/
import proofs.«136042_j28587302322286_1_alg».proof.Defs
import proofs.«136042_j28587302322286_1_alg».proof.Proof.Gen.Kernel
import proofs.«136042_j28587302322286_1_alg».proof.Proof.Gen.Kernel.Skeleton
import proofs.«136042_j28587302322286_1_alg».proof.Proof.Gen.Kernel.Launch
import proofs.«136042_j28587302322286_1_alg».proof.Proof.Gen.Kernel.Points
import proofs.«136042_j28587302322286_1_alg».proof.Proof.Gen.Kernel.Frame
import proofs.«136042_j28587302322286_1_alg».proof.Proof.Gen.KernelIdeal
import proofs.«136042_j28587302322286_1_alg».proof.Proof.Gen.KernelIdeal.Skeleton
import proofs.«136042_j28587302322286_1_alg».proof.Proof.Gen.KernelIdeal.Launch
import proofs.«136042_j28587302322286_1_alg».proof.Proof.Gen.KernelIdeal.Points
import proofs.«136042_j28587302322286_1_alg».proof.Proof.Gen.KernelIdeal.Frame
import proofs.«136042_j28587302322286_1_alg».proof.Proof.Gen.KernelIdeal.Value
import proofs.«136042_j28587302322286_1_alg».proof.Proof.Gen.ReferenceIdeal
import proofs.«136042_j28587302322286_1_alg».proof.Proof.Gen.Pre_finite_inputs
import proofs.«136042_j28587302322286_1_alg».proof.Proof.RefRun
import proofs.«136042_j28587302322286_1_alg».proof.Proof.RefValue
import proofs.«136042_j28587302322286_1_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end with the shifted row-wise log-softmax of P·Z, of arguments that agree; the logits Z are one term of
    the first six arguments on both sides. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.result_eq]
  obtain ⟨e0, e1, e2, e3, e4, e5, e6⟩ := hagree c
  rw [e0, e1, e2, e3, e4, e5, e6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
